-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S1024x1024 : Shape := ⟨2, ![1024, 1024]⟩
abbrev S1024 : Shape := ⟨1, ![1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S16x1024x1024 .f32) (main_arg1 : FVec F S16x1024x1024 .f32) (main_arg2 : FVec F S16x1024x1024 .f32) (main_arg3 : FVec F S1024x1024 .f32) (main_arg4 : FVec F S1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S16x1024x1024 .f32 := Host.absf main_arg2
  let main_cst_2 : FVec F S_ .f32 := constant S_ .f32 0x7F800000#32
  let main_v10 : FVec F S16x1024x1024 .f32 := broadcastInDim S16x1024x1024 ![] bcast_S_S16x1024x1024 main_cst_2
  let main_v11 : IVec S16x1024x1024 1 := cmpf .olt main_v9 main_v10
  let main_c_3 : IVec S_ 1 := constantI S_ 1 1#1
  let main_v12 : IVec S_ 1 := (fun x v => Host.reduce IntOp.andi x v reducesTo_S16x1024x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S16x1024x1024 : Shape := ⟨3, ![16, 1024, 1024]⟩
abbrev S1024x1024 : Shape := ⟨2, ![1024, 1024]⟩
abbrev S1024 : Shape := ⟨1, ![1024]⟩
abbrev S1x256x1024 : Shape := ⟨3, ![1, 256, 1024]⟩
abbrev S1x1024x1024 : Shape := ⟨3, ![1, 1024, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16x1024x1024, .f32⟩
  | .hbm, ⟨3, _⟩ => ⟨S1024x1024, .f32⟩
  | .hbm, ⟨4, _⟩ => ⟨S1024, .f32⟩
  | .hbm, ⟨5, _⟩ => ⟨S1024x1024, .bf16⟩
  | .hbm, ⟨6, _⟩ => ⟨S16x1024x1024, .bf16⟩
  | .hbm, ⟨7, _⟩ => ⟨S16x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S256x1024_S256 : S256x1024.Reduces [1] S256
  shapeCasts_S256_S256x1 : S256.ShapeCasts S256x1
  broadcasts_S256x1_S256x1024 : S256x1.Broadcasts S256x1024
  shapeCasts_S256x1024_S1x256x1024 : S256x1024.ShapeCasts S1x256x1024
  dot_S256x1024_S1024x1024_S256x1024_1_1_0_0_n_n_wf : DotDims.WF S256x1024 S1024x1024 S256x1024 [1] [1] [0] [0] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x1024x1024.size a
  hwx0_0 : ∀ i : grid0.Coords, EltTy.bits .f32 = 32 ∨ (Rect.block (s := S16x1024x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S16x1024x1024.size a
  hwx0_3 : ∀ i : grid0.Coords, EltTy.bits .bf16 = 32 ∨ (Rect.block (s := S16x1024x1024) S1x1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S16x1024x1024.size a
  hwx0_4 : ∀ i : grid0.Coords, EltTy.bits .f32 = 32 ∨ (Rect.block (s := S16x1024x1024) S1x256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S16x1024x1024.size a
  hwx0_5 : ∀ i : grid0.Coords, EltTy.bits .f32 = 32 ∨ (Rect.block (s := S16x1024x1024) S1x256x1024.size (cc0_transform_5 i) (hinb0_5 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S16x1024 : Shape := ⟨2, ![16, 1024]⟩
abbrev S16x1024x1 : Shape := ⟨3, ![16, 1024, 1]⟩

abbrev nBuf : Space → Nat
  | .hbm => 26
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16x1024x1024, .f32⟩
  | .hbm, ⟨3, _⟩ => ⟨S1024x1024, .f32⟩
  | .hbm, ⟨4, _⟩ => ⟨S1024, .f32⟩
  | .hbm, ⟨5, _⟩ => ⟨S16x1024x1024, .f32⟩
  | .hbm, ⟨6, _⟩ => ⟨S1x1x1024, .f32⟩
  | .hbm, ⟨7, _⟩ => ⟨S16x1024x1024, .f32⟩
  | .hbm, ⟨8, _⟩ => ⟨S16x1024x1024, .f32⟩
  | .hbm, ⟨9, _⟩ => ⟨S16x1024x1024, .f32⟩
  | .hbm, ⟨10, _⟩ => ⟨S16x1024x1024, .f32⟩
  | .hbm, ⟨11, _⟩ => ⟨S_, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024x1, .f32⟩
  | .hbm, ⟨17, _⟩ => ⟨S16x1024x1024, .f32⟩
  | .hbm, ⟨18, _⟩ => ⟨S16x1024x1024, .f32⟩
  | .hbm, ⟨19, _⟩ => ⟨S16x1024x1024, .f32⟩
  | .hbm, ⟨20, _⟩ => ⟨S_, .f32⟩
  | .hbm, ⟨21, _⟩ => ⟨S16x1024, .f32⟩
  | .hbm, ⟨22, _⟩ => ⟨S16x1024x1, .f32⟩
  | .hbm, ⟨23, _⟩ => ⟨S16x1024x1024, .f32⟩
  | .hbm, ⟨24, _⟩ => ⟨S16x1024x1024, .f32⟩
  | .hbm, ⟨25, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  dot_S16x1024x1024_S1024x1024_S16x1024x1024_2_1_01_0_n_n_wf : DotDims.WF S16x1024x1024 S1024x1024 S16x1024x1024 [2] [1] [0, 1] [0] [] []
  dot_S16x1024x1024_S16x1024x1024_S16x1024x1024_2_2_1_1_0_0_wf : DotDims.WF S16x1024x1024 S16x1024x1024 S16x1024x1024 [2] [2] [1] [1] [0] [0]
  dot_S16x1024x1024_S16x1024x1024_S16x1024x1024_2_1_1_2_0_0_wf : DotDims.WF S16x1024x1024 S16x1024x1024 S16x1024x1024 [2] [1] [1] [2] [0] [0]

variable [Facts₀]

def dot_S16x1024x1024_S1024x1024_S16x1024x1024_2_1_01_0_n_n : DotDims S16x1024x1024 S1024x1024 S16x1024x1024 where
  lhsContracting := [2]
  rhsContracting := [1]
  lhsNonContracting := [0, 1]
  rhsNonContracting := [0]
  lhsBatch := []
  rhsBatch := []
  wf := dot_S16x1024x1024_S1024x1024_S16x1024x1024_2_1_01_0_n_n_wf
def dot_S16x1024x1024_S16x1024x1024_S16x1024x1024_2_2_1_1_0_0 : DotDims S16x1024x1024 S16x1024x1024 S16x1024x1024 where
  lhsContracting := [2]
  rhsContracting := [2]
  lhsNonContracting := [1]
  rhsNonContracting := [1]
  lhsBatch := [0]
  rhsBatch := [0]
  wf := dot_S16x1024x1024_S16x1024x1024_S16x1024x1024_2_2_1_1_0_0_wf
def dot_S16x1024x1024_S16x1024x1024_S16x1024x1024_2_1_1_2_0_0 : DotDims S16x1024x1024 S16x1024x1024 S16x1024x1024 where
  lhsContracting := [2]
  rhsContracting := [1]
  lhsNonContracting := [1]
  rhsNonContracting := [2]
  lhsBatch := [0]
  rhsBatch := [0]
  wf := dot_S16x1024x1024_S16x1024x1024_S16x1024x1024_2_1_1_2_0_0_wf

class Facts : Prop extends Facts₀ where

variable [Facts]
-- ==== Proof.Attention.lean ====
/-
  Dot-product attention with an additive mask, one query row at a time, over the extended reals.

  A query row q (1024 entries) is first projected, p e = (sum over d of q d * W e d) + b e; its logits against
  the 1024 key rows K t are l t = (sum over e of p e * K t e) + mask t; the logits are turned into weights by the
  softmax with the row's maximum subtracted first, w t = exp (l t - max l) / sum over u of exp (l u - max l);
  and the row of the result is the weights' combination of the same rows K, out e = sum over t of w t * K t e.
  The maximum is the fold of max from minus infinity over the 1024 logits, met once more with minus infinity
  (which changes nothing, and is how both programs spell it).  Sums and the fold are over the index type
  Fin 1024, so no order of summation is in them.

  The whole result array is this row function at every (batch, query) pair: row (b, s) of S is the query,
  the 1024 x 1024 slab b of H holds the keys (which are also the values), row (b, s) of the mask is added.
-/
import Idealize.ShloMosaic.PureOps.Ideal
import Idealize.ShloMosaic.Lib.ValueIdx

noncomputable section

namespace Cert.Attn

open Idealize.ShloMosaic Idealize.ShloMosaic.ValueIdx

/-- Minus infinity, as the f32 pattern both programs write. -/
abbrev negInf : EReal := Ideal.ofBits .f32 0xFF800000#32

/-- The projected query: entry e of q W^T + b. -/
def project (q : Fin 1024 → EReal) (W : Fin 1024 → Fin 1024 → EReal) (wb : Fin 1024 → EReal) (e : Fin 1024) : EReal :=
  (∑ d : Fin 1024, q d * W e d) + wb e

/-- The logit of the projected query against key row t, the mask added. -/
def logit (q : Fin 1024 → EReal) (W : Fin 1024 → Fin 1024 → EReal) (wb : Fin 1024 → EReal)
    (K : Fin 1024 → Fin 1024 → EReal) (mk : Fin 1024 → EReal) (t : Fin 1024) : EReal :=
  (∑ e : Fin 1024, project q W wb e * K t e) + mk t

/-- The largest of 1024 values, from minus infinity. -/
def peak (f : Fin 1024 → EReal) : EReal :=
  max negInf ((Finset.univ : Finset (Fin 1024)).fold max negInf f)

/-- exp of a value's distance below the largest. -/
def unnorm (f : Fin 1024 → EReal) (t : Fin 1024) : EReal := Ideal.exp (f t - peak f)

/-- The softmax weight of entry t. -/
def weight (f : Fin 1024 → EReal) (t : Fin 1024) : EReal :=
  Ideal.div (unnorm f t) (∑ u : Fin 1024, unnorm f u)

/-- One row of the result: the weights' combination of the key rows. -/
def attendRow (q : Fin 1024 → EReal) (W : Fin 1024 → Fin 1024 → EReal) (wb : Fin 1024 → EReal)
    (K : Fin 1024 → Fin 1024 → EReal) (mk : Fin 1024 → EReal) (e : Fin 1024) : EReal :=
  ∑ t : Fin 1024, weight (logit q W wb K mk) t * K t e

/-- The whole result: entry (b, s, e) is row (b, s) of S attended over slab b of H under row (b, s) of the mask. -/
def attend (S H M : (⟨3, ![16, 1024, 1024]⟩ : Shape).Idx → EReal) (W : (⟨2, ![1024, 1024]⟩ : Shape).Idx → EReal)
    (Wb : (⟨1, ![1024]⟩ : Shape).Idx → EReal) : (⟨3, ![16, 1024, 1024]⟩ : Shape).Idx → EReal :=
  fun i => attendRow (fun d => S (ix3 (i 0) (i 1) d)) (fun e d => W (ix2 e d)) (fun e => Wb (ix1 e))
    (fun t e => H (ix3 (i 0) t e)) (fun t => M (ix3 (i 0) (i 1) t)) (i 2)

theorem attend_apply (S H M : (⟨3, ![16, 1024, 1024]⟩ : Shape).Idx → EReal) (W : (⟨2, ![1024, 1024]⟩ : Shape).Idx → EReal)
    (Wb : (⟨1, ![1024]⟩ : Shape).Idx → EReal) (b : Fin 16) (s e : Fin 1024) :
    attend S H M W Wb (ix3 b s e) = attendRow (fun d => S (ix3 b s d)) (fun e d => W (ix2 e d)) (fun e => Wb (ix1 e))
      (fun t e => H (ix3 b t e)) (fun t => M (ix3 b s t)) e := rfl

end Cert.Attn

end
-- ==== Proof.LibRowMax.lean ====
/-
  The largest entry of a row, read at the row.

  A maximum taken over the last axis of an array, read at one row, is the fold of max, from the reduction's
  initial value, over that row's entries: for a vector unit's reduction of an [a, b] array at row r the entries
  (r, k), for a host reduction of an [n, a, b] array at (p, r) the entries (p, r, k), k over the last axis.
  max on the extended reals commutes and associates, so the fold has no order in it.
-/
import Idealize.ShloMosaic.Lib.ValueIdx
import Idealize.ShloMosaic.PureOps.Ideal.Laws

namespace Cert.RowMax

open Idealize.ShloMosaic Idealize.ShloMosaic.ValueIdx

/-- A multi_reduction maximumf over the last axis of an [a, b] array, read at row r: the fold of max over the
    row's b entries, from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (fun f => (Finset.univ : Finset (Fin b)).fold max (Ideal.ofBits φ acc) f) ?_
  funext k
  refine congrArg src ?_
  funext c
  apply Fin.ext
  match c with
  | ⟨0, _⟩ => rfl
  | ⟨1, _⟩ => rfl

/-- A host reduction by maximum over the last axis of an [n, a, b] array, read at (p, r): the fold of max over
    the b entries (p, r, k), from the initial value's element. -/
theorem hostRowMax_apply {n a b : ℕ} {φ : FTy} {u : Shape} (x : FVec Ideal ⟨3, ![n, a, b]⟩ φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (p : Fin n) (r : Fin a) :
    Host.reduce FloatOps.maximumf x init h' hu (ix2 p r)
      = (Finset.univ : Finset (Fin b)).fold max (init (Shape.Idx.first hu)) (fun k => x (ix3 p r k)) := by
  refine (Host.reduce_eq_fold_single FloatOps.maximumf x init h' h hu (ix2 p r)).trans ?_
  refine congrArg (fun f => (Finset.univ : Finset (Fin b)).fold max (init (Shape.Idx.first hu)) f) ?_
  funext k
  refine congrArg x ?_
  funext c
  apply Fin.ext
  match c with
  | ⟨0, _⟩ => rfl
  | ⟨1, _⟩ => rfl
  | ⟨2, _⟩ => rfl

end Cert.RowMax
-- ==== Proof.LibKeepdims.lean ====
/-
  A row statistic kept as a column, and a [1, 1, a, b] block seen as a matrix.

  A kernel that works on one [a, b] tile of a [1, 1, a, b] block drops the two leading unit axes on the way in and
  puts them back on the way out; a per-row statistic kept with a trailing unit axis ([a, 1]) is spread along the
  rows to [a, b] by a broadcast; and a sum over the last axis of an [a, b] array, read at row r, is the sum of that
  row's entries.  Each is read here at explicit coordinates.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An [a, 1] column spread along the rows to [a, b], read at (p, c): the column's entry p. -/
theorem column_broadcast_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1, a, b] block seen as an [a, b] matrix, read at (i, j): the block's entry (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] matrix put back as a [1, 1, a, b] block, read at (u, v, i, j): the matrix's entry (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- Over the extended reals, the sum over the last axis of an [a, b] array, read at row r, is the sum over the
    row's b entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext c
  apply Fin.ext
  match c with
  | ⟨0, _⟩ => rfl
  | ⟨1, _⟩ => rfl

end Cert.Keepdims
-- ==== Proof.LibColumns.lean ====
/-
  Columns of a rank-two array, as vectors.

  A program that works on an [n, w] array column by column cuts column `k` out as an [n, 1] slice and flattens it
  to a vector of `n` entries, and sets a computed vector of `n` entries up again as an [n, 1] column before putting
  it in its place. Read at a row `r`, the first is the array's entry (r, k) and the second is the vector's entry
  `r`: the row-major position of (r, 0) among [n, 1] is `r`, the position of `r` among [n].
-/
import Idealize.ShloMosaic.Lib.Pipeline.Value
import Idealize.ShloMosaic.Lib.ValueIdx

namespace Cert.TriInv

open Idealize.ShloMosaic Idealize.ShloMosaic.ValueIdx

variable {α : Type}

/-- Column `k` of an [n, w] array, cut out as an [n, 1] slice and flattened, read at row `r`: the entry (r, k). -/
theorem column_apply (n w k : Nat) (hk : k < w) (x : (⟨2, ![n, w]⟩ : Shape).Idx → α)
    (hs : (⟨2, ![n, w]⟩ : Shape).Slices ![0, k] ⟨2, ![n, 1]⟩) (hc : (⟨2, ![n, 1]⟩ : Shape).ShapeCasts ⟨1, ![n]⟩)
    (r : Fin n) :
    shapeCast ⟨1, ![n]⟩ (extractStridedSlice ⟨2, ![n, 1]⟩ ![0, k] x hs) hc (ix1 r) = x (ix2 r ⟨k, hk⟩) := by
  refine (shapeCast_apply _ hc (ix1 r) (ix2 r (0 : Fin 1)) ?_).trans ?_
  · rw [Shape.rowMajor_val_two, Shape.rowMajor_val_one]
    show r.val * 1 + 0 = r.val
    omega
  · refine extractStridedSlice_apply ![0, k] x hs (ix2 r (0 : Fin 1)) (ix2 r ⟨k, hk⟩) fun a => ?_
    match a with
    | ⟨0, _⟩ => show r.val = 0 + r.val; omega
    | ⟨1, _⟩ => show k = k + 0; omega

/-- A vector of `n` entries set up as an [n, 1] column, read at (r, 0): the vector's entry `r`. -/
theorem asColumn_apply (n : Nat) (w : (⟨1, ![n]⟩ : Shape).Idx → α)
    (hc : (⟨1, ![n]⟩ : Shape).ShapeCasts ⟨2, ![n, 1]⟩) (r : Fin n) (z : Fin 1) :
    shapeCast ⟨2, ![n, 1]⟩ w hc (ix2 r z) = w (ix1 r) := by
  refine shapeCast_apply w hc (ix2 r z) (ix1 r) ?_
  rw [Shape.rowMajor_val_two, Shape.rowMajor_val_one]
  have hz : z.val < 1 := z.isLt
  show r.val = r.val * 1 + z.val
  omega

end Cert.TriInv
-- ==== Proof.BodyAttention.lean ====
/-
  One grid point's arithmetic is attention on a tile of 256 query rows.

  The body reads a [1, 256, 1024] tile of queries, the whole weight matrix and bias, one [1, 1024, 1024] slab of
  keys and a [1, 256, 1024] tile of the mask, and stores a [1, 256, 1024] tile.  Its arithmetic is cut here into
  the stages the row function of Attention.lean has: the projection (a product with the weight matrix transposed,
  plus the bias spread over the rows), the logits (a product with the slab transposed, plus the mask tile), each
  row's largest logit kept as a column and spread back, the exponentials, each row's total likewise, the quotient,
  and the product with the slab.  Read at local row r each stage is the row function's stage on row r of the
  query tile, the slab and row r of the mask tile.  A change of float format is the identity on the extended
  reals, and a product into a zero accumulator is the plain sum of products, so nothing but the choice of entries
  separates the two spellings.
-/
import proofs.«153279_j86741159510307_1_alg».proof.Proof.Gen.KernelIdeal.Skeleton
import proofs.«153279_j86741159510307_1_alg».proof.Proof.Attention
import proofs.«153279_j86741159510307_1_alg».proof.Proof.LibRowMax
import proofs.«153279_j86741159510307_1_alg».proof.Proof.LibKeepdims
import proofs.«153279_j86741159510307_1_alg».proof.Proof.LibColumns
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open Cert.Attn

/-! ## The two matrix products, read at an entry -/

/-- The product that contracts the last axis of both operands (rows against rows). -/
abbrev Drr := dot_S256x1024_S1024x1024_S256x1024_1_1_0_0_n_n
/-- The product that contracts the last axis of the left operand with the first of the right. -/
abbrev Drc := dot_S256x1024_S1024x1024_S256x1024_1_0_0_1_n_n

theorem drr_lhs0 (i : S256x1024.Idx) (q : Drr.contr.Idx) : (Drr.lhsIdx i q 0).val = (i 0).val := by
  unfold DotDims.lhsIdx
  rw [dif_neg (show ¬(0 : Fin S256x1024.rank) ∈ Drr.lhsBatch by decide),
    dif_pos (show (0 : Fin S256x1024.rank) ∈ Drr.lhsNonContracting by decide)]
  rfl
theorem drr_lhs1 (i : S256x1024.Idx) (q : Drr.contr.Idx) : (Drr.lhsIdx i q 1).val = (q ⟨0, by decide⟩).val :=
  Drr.lhsIdx_val_of_single rfl i q
theorem drr_rhs0 (i : S256x1024.Idx) (q : Drr.contr.Idx) : (Drr.rhsIdx i q 0).val = (i 1).val := by
  unfold DotDims.rhsIdx
  rw [dif_neg (show ¬(0 : Fin S1024x1024.rank) ∈ Drr.rhsBatch by decide),
    dif_pos (show (0 : Fin S1024x1024.rank) ∈ Drr.rhsNonContracting by decide)]
  rfl
theorem drr_rhs1 (i : S256x1024.Idx) (q : Drr.contr.Idx) : (Drr.rhsIdx i q 1).val = (q ⟨0, by decide⟩).val :=
  Drr.rhsIdx_val_of_single rfl i q

theorem drc_lhs0 (i : S256x1024.Idx) (q : Drc.contr.Idx) : (Drc.lhsIdx i q 0).val = (i 0).val := by
  unfold DotDims.lhsIdx
  rw [dif_neg (show ¬(0 : Fin S256x1024.rank) ∈ Drc.lhsBatch by decide),
    dif_pos (show (0 : Fin S256x1024.rank) ∈ Drc.lhsNonContracting by decide)]
  rfl
theorem drc_lhs1 (i : S256x1024.Idx) (q : Drc.contr.Idx) : (Drc.lhsIdx i q 1).val = (q ⟨0, by decide⟩).val :=
  Drc.lhsIdx_val_of_single rfl i q
theorem drc_rhs0 (i : S256x1024.Idx) (q : Drc.contr.Idx) : (Drc.rhsIdx i q 0).val = (q ⟨0, by decide⟩).val :=
  Drc.rhsIdx_val_of_single rfl i q
theorem drc_rhs1 (i : S256x1024.Idx) (q : Drc.contr.Idx) : (Drc.rhsIdx i q 1).val = (i 1).val := by
  unfold DotDims.rhsIdx
  rw [dif_neg (show ¬(1 : Fin S1024x1024.rank) ∈ Drc.rhsBatch by decide),
    dif_pos (show (1 : Fin S1024x1024.rank) ∈ Drc.rhsNonContracting by decide)]
  rfl

/-- Rows against rows into a zero accumulator, at (p, c): the sum over k of l (p, k) * r (c, k). -/
theorem rowsRows_apply (l : FVec Ideal S256x1024 .bf16) (r : FVec Ideal S1024x1024 .bf16) (p : Fin 256) (c : Fin 1024) :
    matmul Drr none l r (constant S256x1024 .f32 0x00000000#32) (ix2 p c) = ∑ k : Fin 1024, l (ix2 p k) * r (ix2 c k) := by
  simp only [matmul]
  rw [Ideal.matmul_constant_zero_apply, ← Equiv.sum_comp (contrEquiv1 Drr 1024 rfl rfl).symm]
  refine Finset.sum_congr rfl fun k _ => ?_
  have hk := contrEquiv1_symm_val Drr 1024 rfl rfl k
  have el : Drr.lhsIdx (ix2 p c) ((contrEquiv1 Drr 1024 rfl rfl).symm k) = ix2 p k := funext fun a => Fin.ext (by
    match a with
    | ⟨0, _⟩ => exact drr_lhs0 _ _
    | ⟨1, _⟩ => exact (drr_lhs1 _ _).trans hk)
  have er : Drr.rhsIdx (ix2 p c) ((contrEquiv1 Drr 1024 rfl rfl).symm k) = ix2 c k := funext fun a => Fin.ext (by
    match a with
    | ⟨0, _⟩ => exact drr_rhs0 _ _
    | ⟨1, _⟩ => exact (drr_rhs1 _ _).trans hk)
  rw [el, er]

/-- Rows against columns into a zero accumulator, at (p, c): the sum over k of l (p, k) * r (k, c). -/
theorem rowsCols_apply (l : FVec Ideal S256x1024 .bf16) (r : FVec Ideal S1024x1024 .bf16) (p : Fin 256) (c : Fin 1024) :
    matmul Drc none l r (constant S256x1024 .f32 0x00000000#32) (ix2 p c) = ∑ k : Fin 1024, l (ix2 p k) * r (ix2 k c) := by
  simp only [matmul]
  rw [Ideal.matmul_constant_zero_apply, ← Equiv.sum_comp (contrEquiv1 Drc 1024 rfl rfl).symm]
  refine Finset.sum_congr rfl fun k _ => ?_
  have hk := contrEquiv1_symm_val Drc 1024 rfl rfl k
  have el : Drc.lhsIdx (ix2 p c) ((contrEquiv1 Drc 1024 rfl rfl).symm k) = ix2 p k := funext fun a => Fin.ext (by
    match a with
    | ⟨0, _⟩ => exact drc_lhs0 _ _
    | ⟨1, _⟩ => exact (drc_lhs1 _ _).trans hk)
  have er : Drc.rhsIdx (ix2 p c) ((contrEquiv1 Drc 1024 rfl rfl).symm k) = ix2 k c := funext fun a => Fin.ext (by
    match a with
    | ⟨0, _⟩ => exact (drc_rhs0 _ _).trans hk
    | ⟨1, _⟩ => exact drc_rhs1 _ _)
  rw [el, er]

/-! ## The body's stages -/

variable (v0 : Vec Ideal S1x256x1024 .f32) (v3 : Vec Ideal S1024x1024 .bf16) (v6 : Vec Ideal S1024 .f32)
  (v11 : Vec Ideal S1x1024x1024 .bf16) (v14 : Vec Ideal S1x256x1024 .f32)

/-- The query tile as a matrix. -/
def sQuery : FVec Ideal S256x1024 .bf16 :=
  truncf .bf16 (shapeCast S256x1024 v0 shapeCasts_S1x256x1024_S256x1024) bitsLt_bf16_f32
/-- The key slab as a matrix. -/
def sKeys : FVec Ideal S1024x1024 .bf16 := shapeCast S1024x1024 v11 shapeCasts_S1x1024x1024_S1024x1024
/-- The weight matrix (its cast is to its own shape). -/
def sWmat : FVec Ideal S1024x1024 .bf16 := shapeCast S1024x1024 v3 shapeCasts_S1024x1024_S1024x1024
/-- The projected tile. -/
def sProj : FVec Ideal S256x1024 .f32 :=
  addf (matmul Drr none (sQuery v0) (sWmat v3) (constant S256x1024 .f32 0x00000000#32))
    (broadcastTo S256x1024 (shapeCast S1x1024 v6 shapeCasts_S1024_S1x1024) broadcasts_S1x1024_S256x1024)
/-- The tile's logits. -/
def sLogit : FVec Ideal S256x1024 .f32 :=
  addf (matmul Drr none (truncf .bf16 (sProj v0 v3 v6) bitsLt_bf16_f32) (sKeys v11) (constant S256x1024 .f32 0x00000000#32))
    (shapeCast S256x1024 v14 shapeCasts_S1x256x1024_S256x1024)
/-- Each row's largest logit. -/
def sPeak : FVec Ideal S256 .f32 :=
  maximumf (broadcast S256 (Scalar.ofBits .f32 0xFF800000#32))
    (multiReduction .maximumf [1] S256 (sLogit v0 v3 v6 v11 v14) 0xFF800000#32 reduces_S256x1024_S256 (.inl rfl) rfl)
/-- The exponentials of the distances below it. -/
def sUnnorm : FVec Ideal S256x1024 .f32 :=
  exp (subf (sLogit v0 v3 v6 v11 v14)
    (broadcastTo S256x1024 (shapeCast S256x1 (sPeak v0 v3 v6 v11 v14) shapeCasts_S256_S256x1) broadcasts_S256x1_S256x1024))
/-- Each row's total of them. -/
def sTotal : FVec Ideal S256 .f32 :=
  multiReduction .add [1] S256 (sUnnorm v0 v3 v6 v11 v14) 0x00000000#32 reduces_S256x1024_S256 (.inl rfl) rfl
/-- The weights. -/
def sWeight : FVec Ideal S256x1024 .f32 :=
  divf (sUnnorm v0 v3 v6 v11 v14)
    (broadcastTo S256x1024 (shapeCast S256x1 (sTotal v0 v3 v6 v11 v14) shapeCasts_S256_S256x1) broadcasts_S256x1_S256x1024)
/-- The weights' combination of the slab. -/
def sOut : FVec Ideal S256x1024 .f32 :=
  matmul Drc none (truncf .bf16 (sWeight v0 v3 v6 v11 v14) bitsLt_bf16_f32) (sKeys v11) (constant S256x1024 .f32 0x00000000#32)

/-- The stored value is the last stage, with the leading unit axis put back. -/
theorem pay_eq : k0_pay1 (F := Ideal) v0 v3 v6 v11 v14
    = shapeCast S1x256x1024 (sOut v0 v3 v6 v11 v14) shapeCasts_S256x1024_S1x256x1024 := rfl

/-! ## The stages read at a row -/

/-- Row r of the query tile. -/
abbrev tq (r : Fin 256) : Fin 1024 → EReal := fun d => v0 (ix3 (0 : Fin 1) r d)
/-- The weight matrix by coordinates. -/
abbrev tW : Fin 1024 → Fin 1024 → EReal := fun e d => v3 (ix2 e d)
/-- The bias by coordinate. -/
abbrev tb : Fin 1024 → EReal := fun e => v6 (ix1 e)
/-- The slab's rows. -/
abbrev tK : Fin 1024 → Fin 1024 → EReal := fun t e => v11 (ix3 (0 : Fin 1) t e)
/-- Row r of the mask tile. -/
abbrev tm (r : Fin 256) : Fin 1024 → EReal := fun t => v14 (ix3 (0 : Fin 1) r t)

theorem sQuery_apply (r : Fin 256) (d : Fin 1024) : sQuery v0 (ix2 r d) = v0 (ix3 (0 : Fin 1) r d) :=
  shapeCast_1ab_ab_apply v0 shapeCasts_S1x256x1024_S256x1024 r d

theorem sKeys_apply (t e : Fin 1024) : sKeys v11 (ix2 t e) = v11 (ix3 (0 : Fin 1) t e) :=
  shapeCast_1ab_ab_apply v11 shapeCasts_S1x1024x1024_S1024x1024 t e

theorem sWmat_apply (e d : Fin 1024) : sWmat v3 (ix2 e d) = v3 (ix2 e d) := by
  unfold sWmat
  rw [shapeCast_self]

theorem sProj_apply (r : Fin 256) (e : Fin 1024) :
    sProj v0 v3 v6 (ix2 r e) = project (tq v0 r) (tW v3) (tb v6) e := by
  unfold sProj project
  rw [addf_apply, rowsRows_apply, broadcastTo_1b_ab_apply, shapeCast_a_1a_apply]
  simp only [sQuery_apply, sWmat_apply]

theorem sLogit_apply (r : Fin 256) (t : Fin 1024) :
    sLogit v0 v3 v6 v11 v14 (ix2 r t) = logit (tq v0 r) (tW v3) (tb v6) (tK v11) (tm v14 r) t := by
  unfold sLogit logit
  rw [addf_apply, rowsRows_apply, shapeCast_1ab_ab_apply]
  simp only [truncf_apply, sProj_apply, sKeys_apply]

theorem sPeak_apply (r : Fin 256) :
    sPeak v0 v3 v6 v11 v14 (ix1 r) = peak (logit (tq v0 r) (tW v3) (tb v6) (tK v11) (tm v14 r)) := by
  unfold sPeak peak
  rw [maximumf_apply]
  refine congrArg (max _) ?_
  refine (Cert.RowMax.rowMax_apply (φ := .f32) (sLogit v0 v3 v6 v11 v14) 0xFF800000#32 reduces_S256x1024_S256 (.inl rfl) rfl r).trans ?_
  simp only [sLogit_apply]

theorem sUnnorm_apply (r : Fin 256) (t : Fin 1024) :
    sUnnorm v0 v3 v6 v11 v14 (ix2 r t) = unnorm (logit (tq v0 r) (tW v3) (tb v6) (tK v11) (tm v14 r)) t := by
  unfold sUnnorm unnorm
  show Ideal.exp (sLogit v0 v3 v6 v11 v14 (ix2 r t) - broadcastTo S256x1024 (shapeCast S256x1 (sPeak v0 v3 v6 v11 v14) shapeCasts_S256_S256x1) broadcasts_S256x1_S256x1024 (ix2 r t)) = _
  rw [Cert.Keepdims.column_broadcast_apply, Cert.TriInv.asColumn_apply, sLogit_apply, sPeak_apply]

theorem sTotal_apply (r : Fin 256) :
    sTotal v0 v3 v6 v11 v14 (ix1 r) = ∑ u : Fin 1024, unnorm (logit (tq v0 r) (tW v3) (tb v6) (tK v11) (tm v14 r)) u := by
  unfold sTotal
  refine (Cert.Keepdims.rowSum_apply (φ := .f32) (sUnnorm v0 v3 v6 v11 v14) 0x00000000#32 reduces_S256x1024_S256 (.inl rfl) rfl r).trans ?_
  simp only [sUnnorm_apply]

theorem sWeight_apply (r : Fin 256) (t : Fin 1024) :
    sWeight v0 v3 v6 v11 v14 (ix2 r t) = weight (logit (tq v0 r) (tW v3) (tb v6) (tK v11) (tm v14 r)) t := by
  unfold sWeight weight
  rw [divf_apply, Cert.Keepdims.column_broadcast_apply, Cert.TriInv.asColumn_apply, sUnnorm_apply, sTotal_apply]

theorem sOut_apply (r : Fin 256) (e : Fin 1024) :
    sOut v0 v3 v6 v11 v14 (ix2 r e) = attendRow (tq v0 r) (tW v3) (tb v6) (tK v11) (tm v14 r) e := by
  unfold sOut attendRow
  rw [rowsCols_apply]
  simp only [truncf_apply, sWeight_apply, sKeys_apply]

/-- What the body stores, at (u, r, e): row r of the query tile attended over the slab under row r of the mask tile. -/
theorem pay_apply (u : Fin 1) (r : Fin 256) (e : Fin 1024) :
    k0_pay1 (F := Ideal) v0 v3 v6 v11 v14 (ix3 u r e) = attendRow (tq v0 r) (tW v3) (tb v6) (tK v11) (tm v14 r) e := by
  rw [pay_eq, shapeCast_ab_1ab_apply, sOut_apply]

/-! ## A tile of the whole arrays -/

/-- When the body's five operands are tiles of whole arrays S, H, M, W, Wb — the 256 query rows from row o of batch b,
    all of W and Wb, slab b of H, and the same 256 rows of batch b of the mask — what the body stores at local row r is
    the whole arrays' attention at row o + r of batch b. -/
theorem tile_eq (x0 : Vec Ideal S1x256x1024 .f32) (x1 : Vec Ideal S1024x1024 .bf16) (x2 : Vec Ideal S1024 .f32)
    (x3 : Vec Ideal S1x1024x1024 .bf16) (x4 : Vec Ideal S1x256x1024 .f32)
    (S H M : (⟨3, ![16, 1024, 1024]⟩ : Shape).Idx → EReal) (W : (⟨2, ![1024, 1024]⟩ : Shape).Idx → EReal)
    (Wb : (⟨1, ![1024]⟩ : Shape).Idx → EReal) (b : Fin 16) (o : ℕ) (ho : o + 256 ≤ 1024)
    (h0 : ∀ (r : Fin 256) (d : Fin 1024), x0 (ix3 (0 : Fin 1) r d) = S (ix3 b (⟨o + r.val, by omega⟩ : Fin 1024) d))
    (h1 : ∀ e d : Fin 1024, x1 (ix2 e d) = W (ix2 e d))
    (h2 : ∀ e : Fin 1024, x2 (ix1 e) = Wb (ix1 e))
    (h3 : ∀ t e : Fin 1024, x3 (ix3 (0 : Fin 1) t e) = H (ix3 b t e))
    (h4 : ∀ (r : Fin 256) (t : Fin 1024), x4 (ix3 (0 : Fin 1) r t) = M (ix3 b (⟨o + r.val, by omega⟩ : Fin 1024) t))
    (u : Fin 1) (r : Fin 256) (e : Fin 1024) :
    k0_pay1 (F := Ideal) x0 x1 x2 x3 x4 (ix3 u r e) = attend S H M W Wb (ix3 b (⟨o + r.val, by omega⟩ : Fin 1024) e) := by
  rw [pay_apply, attend_apply]
  have e0 : tq x0 r = fun d => S (ix3 b (⟨o + r.val, by omega⟩ : Fin 1024) d) := funext fun d => h0 r d
  have e1 : tW x1 = fun e d => W (ix2 e d) := funext fun e => funext fun d => h1 e d
  have e2 : tb x2 = fun e => Wb (ix1 e) := funext fun e => h2 e
  have e3 : tK x3 = fun t e => H (ix3 b t e) := funext fun t => funext fun e => h3 t e
  have e4 : tm x4 r = fun t => M (ix3 b (⟨o + r.val, by omega⟩ : Fin 1024) t) := funext fun t => h4 r t
  rw [e0, e1, e2, e3, e4]

end Cert.KernelIdeal.Body

end
-- ==== Proof.KernelAttention.lean ====
/-
  The kernel's result array is the attention of its arguments.

  The grid has 16 x 4 points; point (b, q) works on the 256 query rows from row 256 q of batch b.  Its windows hand
  the body exactly the tiles the tile lemma of BodyAttention.lean asks for: rows 256 q .. 256 q + 255 of batch b
  of the queries and of the mask, the whole weight matrix and bias, slab b of the keys.  (The weight matrix and the
  keys reach the region through a change of float format on the host, which on the extended reals is the identity.)
  So what the point writes back is the block of the attention array at rows 256 q .. of batch b; the 64 blocks
  tile the array (row s of batch b lies in the block of point (b, s / 256)); hence the array ends holding the
  attention of the five arguments.
-/
import proofs.«153279_j86741159510307_1_alg».proof.Proof.Gen.KernelIdeal.Value
import proofs.«153279_j86741159510307_1_alg».proof.Proof.BodyAttention
import Idealize.ShloMosaic.Lib.StableHlo.Run

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.Attn

variable (m : (ℓ : Loc nD τ sig) → Buf (Elt Ideal) ℓ) (ρ : Dev nD → PrngReg)

/-- The attention of the five argument arrays as launched. -/
abbrev result (c : Dev nD) : S16x1024x1024.Idx → EReal :=
  attend (m ((c : Thread nD τ).loc main_arg0)) (m ((c : Thread nD τ).loc main_arg1)) (m ((c : Thread nD τ).loc main_arg2)) (m ((c : Thread nD τ).loc main_arg3)) (m ((c : Thread nD τ).loc main_arg4))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The two arrays the host writes before the region -/

/-- The weight matrix as the region finds it is the argument: the host only changes its float format. -/
theorem V_weights (c : Dev nD) : (V m c main_v0 : S1024x1024.Idx → EReal) = (m ((c : Thread nD τ).loc main_arg3)) := by
  have e : (V m c main_v0 : S1024x1024.Idx → EReal) = truncf (F := Ideal) (s := S1024x1024) (φ := .f32) .bf16 (m ((c : Thread nD τ).loc main_arg3)) bitsLt_bf16_f32 := by
    dsimp only [Gen.V, Gen.hostOps0]; after_results
  rw [e]; rfl

/-- The keys as the region finds them are the argument, likewise. -/
theorem V_keys (c : Dev nD) : (V m c main_v1 : S16x1024x1024.Idx → EReal) = (m ((c : Thread nD τ).loc main_arg1)) := by
  have e : (V m c main_v1 : S16x1024x1024.Idx → EReal) = truncf (F := Ideal) (s := S16x1024x1024) (φ := .f32) .bf16 (m ((c : Thread nD τ).loc main_arg1)) bitsLt_bf16_f32 := by
    dsimp only [Gen.V, Gen.hostOps0]; after_results
  rw [e]; rfl

/-! ## The index maps over the grid -/

/-- Relations between the six windows' block indices, decided over the 64 points: the query tile, the mask tile and
    the output tile move together; the keys follow the batch coordinate; the weights and bias stay put. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = win0_5.index t (1 : Fin 3)
    ∧ win0_4.index t (2 : Fin 3) = 0
    ∧ win0_5.index t (0 : Fin 3) < 16 ∧ win0_5.index t (1 : Fin 3) < 4 ∧ win0_5.index t (2 : Fin 3) = 0 :=
  (by decide +kernel : ∀ t : Fin grid0.N, _)

/-- Every (batch, row-tile) pair is some point's output block. -/
theorem idx_onto : ∀ (q0 : Fin 16) (q1 : Fin 4), ∃ t : Fin cfg0.N, win0_5.index t = ![q0.val, q1.val, 0] :=
  (by decide +kernel : ∀ (q0 : Fin 16) (q1 : Fin 4), ∃ t : Fin grid0.N, win0_5.index t = ![q0.val, q1.val, 0])

/-! ## The input blocks at a point, entry by entry -/

section Blocks

variable (c : Dev nD) (t : Fin cfg0.N)

/-- The query tile: rows o .. o + 255 of batch b. -/
theorem blk_query (b : Fin 16) (o : ℕ) (ho : o + 256 ≤ 1024) (hb : win0_5.index t (0 : Fin 3) = b.val)
    (hq : win0_5.index t (1 : Fin 3) * 256 = o) (r : Fin 256) (d : Fin 1024) :
    iblk m c 0 t (ix3 (0 : Fin 1) r d) = (m ((c : Thread nD τ).loc main_arg0)) (ix3 b (⟨o + r.val, by omega⟩ : Fin 1024) d) := by
  obtain ⟨f00, f01, f02, -⟩ := idx_facts t
  show V m c main_arg0 (((cfg0.win 0).blk t).view.emb (ix3 (0 : Fin 1) r d)) = _
  rw [V_main_arg0]
  refine congrArg (m ((c : Thread nD τ).loc main_arg0)) (funext fun a => Fin.ext ?_)
  match a with
  | ⟨0, _⟩ => show win0_0.index t (0 : Fin 3) * 1 + 1 * 0 = b.val; omega
  | ⟨1, _⟩ => show win0_0.index t (1 : Fin 3) * 256 + 1 * r.val = o + r.val; omega
  | ⟨2, _⟩ => show win0_0.index t (2 : Fin 3) * 1024 + 1 * d.val = d.val; omega

/-- The weight matrix, whole. -/
theorem blk_weights (e d : Fin 1024) : iblk m c 1 t (ix2 e d) = (m ((c : Thread nD τ).loc main_arg3)) (ix2 e d) := by
  obtain ⟨-, -, -, f10, f11, -⟩ := idx_facts t
  show V m c main_v0 (((cfg0.win 1).blk t).view.emb (ix2 e d)) = _
  rw [V_weights]
  refine congrArg (m ((c : Thread nD τ).loc main_arg3)) (funext fun a => Fin.ext ?_)
  match a with
  | ⟨0, _⟩ => show win0_1.index t (0 : Fin 2) * 1024 + 1 * e.val = e.val; omega
  | ⟨1, _⟩ => show win0_1.index t (1 : Fin 2) * 1024 + 1 * d.val = d.val; omega

/-- The bias, whole. -/
theorem blk_bias (e : Fin 1024) : iblk m c 2 t (ix1 e) = (m ((c : Thread nD τ).loc main_arg4)) (ix1 e) := by
  obtain ⟨-, -, -, -, -, f20, -⟩ := idx_facts t
  show V m c main_arg4 (((cfg0.win 2).blk t).view.emb (ix1 e)) = _
  rw [V_main_arg4]
  refine congrArg (m ((c : Thread nD τ).loc main_arg4)) (funext fun a => Fin.ext ?_)
  match a with
  | ⟨0, _⟩ => show win0_2.index t (0 : Fin 1) * 1024 + 1 * e.val = e.val; omega

/-- The key slab: slab b. -/
theorem blk_keys (b : Fin 16) (hb : win0_5.index t (0 : Fin 3) = b.val) (k e : Fin 1024) : iblk m c 3 t (ix3 (0 : Fin 1) k e) = (m ((c : Thread nD τ).loc main_arg1)) (ix3 b k e) := by
  obtain ⟨-, -, -, -, -, -, f30, f31, f32, -⟩ := idx_facts t
  show V m c main_v1 (((cfg0.win 3).blk t).view.emb (ix3 (0 : Fin 1) k e)) = _
  rw [V_keys]
  refine congrArg (m ((c : Thread nD τ).loc main_arg1)) (funext fun a => Fin.ext ?_)
  match a with
  | ⟨0, _⟩ => show win0_3.index t (0 : Fin 3) * 1 + 1 * 0 = b.val; omega
  | ⟨1, _⟩ => show win0_3.index t (1 : Fin 3) * 1024 + 1 * k.val = k.val; omega
  | ⟨2, _⟩ => show win0_3.index t (2 : Fin 3) * 1024 + 1 * e.val = e.val; omega

/-- The mask tile: rows o .. o + 255 of batch b. -/
theorem blk_mask (b : Fin 16) (o : ℕ) (ho : o + 256 ≤ 1024) (hb : win0_5.index t (0 : Fin 3) = b.val)
    (hq : win0_5.index t (1 : Fin 3) * 256 = o) (r : Fin 256) (k : Fin 1024) :
    iblk m c 4 t (ix3 (0 : Fin 1) r k) = (m ((c : Thread nD τ).loc main_arg2)) (ix3 b (⟨o + r.val, by omega⟩ : Fin 1024) k) := by
  obtain ⟨-, -, -, -, -, -, -, -, -, f40, f41, f42, -⟩ := idx_facts t
  show V m c main_arg2 (((cfg0.win 4).blk t).view.emb (ix3 (0 : Fin 1) r k)) = _
  rw [V_main_arg2]
  refine congrArg (m ((c : Thread nD τ).loc main_arg2)) (funext fun a => Fin.ext ?_)
  match a with
  | ⟨0, _⟩ => show win0_4.index t (0 : Fin 3) * 1 + 1 * 0 = b.val; omega
  | ⟨1, _⟩ => show win0_4.index t (1 : Fin 3) * 256 + 1 * r.val = o + r.val; omega
  | ⟨2, _⟩ => show win0_4.index t (2 : Fin 3) * 1024 + 1 * k.val = k.val; omega

end Blocks

/-! ## What a point writes back, the cover, the array -/

/-- What point t writes back is block t of the attention array. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz3]
  simp only [View.ld_unit_zero (S := S1x256x1024) hz3, View.ld_unit_zero (S := S1024x1024) hz2,
    View.ld_unit_zero (S := S1024) hz1, View.ld_unit_zero (S := S1x1024x1024) hz3]
  obtain ⟨-, -, -, -, -, -, -, -, -, -, -, -, f50, f51, f52⟩ := idx_facts t
  funext j
  obtain ⟨u, r, e, rfl⟩ : ∃ (u : Fin 1) (r : Fin 256) (e : Fin 1024), j = ix3 u r e := ⟨j 0, j 1, j 2, eq_ix3 j⟩
  show k0_pay1 (F := Ideal) (iblk m c 0 t) (iblk m c 1 t) (iblk m c 2 t) (iblk m c 3 t) (iblk m c 4 t) (ix3 u r e)
    = (result m c) (((cfg0.win 5).blk t).view.emb (ix3 u r e))
  refine (Body.tile_eq (iblk m c 0 t) (iblk m c 1 t) (iblk m c 2 t) (iblk m c 3 t) (iblk m c 4 t)
    (m ((c : Thread nD τ).loc main_arg0)) (m ((c : Thread nD τ).loc main_arg1)) (m ((c : Thread nD τ).loc main_arg2)) (m ((c : Thread nD τ).loc main_arg3)) (m ((c : Thread nD τ).loc main_arg4))
    (⟨win0_5.index t (0 : Fin 3), f50⟩ : Fin 16) (win0_5.index t (1 : Fin 3) * 256) (by omega)
    (blk_query m c t _ _ (by omega) rfl rfl) (blk_weights m c t) (blk_bias m c t) (blk_keys m c t _ rfl)
    (blk_mask m c t _ _ (by omega) rfl rfl) u r e).trans ?_
  refine congrArg (result m c) (funext fun a => Fin.ext ?_)
  have hu : u.val = 0 := by omega
  match a with
  | ⟨0, _⟩ => show win0_5.index t (0 : Fin 3) = win0_5.index t (0 : Fin 3) * 1 + 1 * u.val; omega
  | ⟨1, _⟩ => show win0_5.index t (1 : Fin 3) * 256 + r.val = win0_5.index t (1 : Fin 3) * 256 + 1 * r.val; omega
  | ⟨2, _⟩ => show e.val = win0_5.index t (2 : Fin 3) * 1024 + 1 * e.val; omega

/-- An index of the array is in point t's block iff each coordinate is in the block's range on its axis. -/
theorem mem_blk (t : Fin cfg0.N) (i : S16x1024x1024.Idx) :
    i ∈ ((cfg0.win 5).blk t).view.set ↔ ∀ a : Fin 3, win0_5.index t a * S1x256x1024.size a ≤ (i a).val
      ∧ (i a).val < win0_5.index t a * S1x256x1024.size a + S1x256x1024.size a := by
  show i ∈ ((View.whole main_v2).slice (win0_5.rect t)).set ↔ _
  rw [View.set_slice_whole, Rect.mem_set_unit]
  exact Iff.rfl

/-- The 64 blocks tile the array: row s of batch b is in the block of the point with block index (b, s / 256, 0). -/
theorem cover (i : S16x1024x1024.Idx) :
    ∃ t : Fin cfg0.N, (cfg0.win 5).flush t = true ∧ i ∈ ((cfg0.win 5).blk t).view.set := by
  have hi0 : (i 0).val < 16 := (i 0).isLt
  have hi1 : (i 1).val < 1024 := (i 1).isLt
  have hi2 : (i 2).val < 1024 := (i 2).isLt
  obtain ⟨t, ht⟩ := idx_onto ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_blk]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 256 ≤ (i 1).val ∧ (i 1).val < win0_5.index t (1 : Fin 3) * 256 + 256
    omega
  | ⟨2, _⟩ =>
    show win0_5.index t (2 : Fin 3) * 1024 ≤ (i 2).val ∧ (i 2).val < win0_5.index t (2 : Fin 3) * 1024 + 1024
    omega

/-- The result array after the run. -/
theorem final (c : Dev nD) : (dats m 0 c).arrAt 5 cfg0.N = (result m c) :=
  (dats m 0 c).arrAt_eq_of_cover 5 (result m c) (fun t _ => flushed_eq m c t) cover

/-- The kernel's run, with the result array named: the attention of the arguments; the arguments unchanged. -/
theorem run : θ_run defs (onTc (τ := τ) (main (F := Ideal))) ⟨m, fun _ => 0, ρ⟩ fun r => ∀ c : Dev nD,
      r.2.mem ((c : Thread nD τ).loc main_v2) = (result m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.RefAttention.lean ====
/-
  The reference computes attention, row by row.

  The reference's operations are read here one at a time at an index (b, s, ·): the first einsum and the bias give
  the projected query of row (b, s); the second einsum and the mask give that row's logits against slab b of H;
  the reduction by maximum (met with minus infinity) gives the row's largest logit, the exponential of the
  difference the unnormalised weight, the sum over the row its total, the quotient the weight; and the last einsum
  combines slab b of H by the weights.  Every stage is, entry by entry, the corresponding stage of the row
  function of Attention.lean; no law of arithmetic is used, only which entries each operation reads.
-/
import proofs.«153279_j86741159510307_1_alg».proof.Proof.Gen.ReferenceIdeal.Read
import proofs.«153279_j86741159510307_1_alg».proof.Proof.Attention
import proofs.«153279_j86741159510307_1_alg».proof.Proof.LibRowMax

noncomputable section

namespace Cert.ReferenceIdeal.RefValue

open Cert.ReferenceIdeal Cert.ReferenceIdeal.Gen Cert.ReferenceIdeal.Read Idealize.ShloMosaic Idealize.ShloMosaic.ValueIdx
open Cert.Attn

variable (x0 x1 x2 : (⟨S16x1024x1024, .f32⟩ : BufTy).Contents (Elt Ideal))
  (x3 : (⟨S1024x1024, .f32⟩ : BufTy).Contents (Elt Ideal)) (x4 : (⟨S1024, .f32⟩ : BufTy).Contents (Elt Ideal))

/-- Row (b, s) of the queries. -/
abbrev qrow (b : Fin 16) (s : Fin 1024) : Fin 1024 → EReal := fun d => x0 (ix3 b s d)
/-- The weight matrix by coordinates. -/
abbrev wmat : Fin 1024 → Fin 1024 → EReal := fun e d => x3 (ix2 e d)
/-- The bias by coordinate. -/
abbrev bias : Fin 1024 → EReal := fun e => x4 (ix1 e)
/-- Slab b of the keys. -/
abbrev keys (b : Fin 16) : Fin 1024 → Fin 1024 → EReal := fun t e => x1 (ix3 b t e)
/-- Row (b, s) of the mask. -/
abbrev mrow (b : Fin 16) (s : Fin 1024) : Fin 1024 → EReal := fun t => x2 (ix3 b s t)

/-! ## Which entries each contraction and broadcast reads -/

theorem lidx0 (b : Fin 16) (s e k : Fin 1024) : lidx_main_v0 (ix3 b s e) k = ix3 b s k :=
  funext fun a => Fin.ext (by match a with | ⟨0, _⟩ => rfl | ⟨1, _⟩ => rfl | ⟨2, _⟩ => rfl)
theorem ridx0 (b : Fin 16) (s e k : Fin 1024) : ridx_main_v0 (ix3 b s e) k = ix2 e k :=
  funext fun a => Fin.ext (by match a with | ⟨0, _⟩ => rfl | ⟨1, _⟩ => rfl)
theorem idx12 (b : Fin 16) (s e : Fin 1024) : idx_main_v1 (idx_main_v2 (ix3 b s e)) = ix1 e :=
  funext fun a => Fin.ext (by match a with | ⟨0, _⟩ => rfl)
theorem lidx4 (b : Fin 16) (s t k : Fin 1024) : lidx_main_v4 (ix3 b s t) k = ix3 b s k :=
  funext fun a => Fin.ext (by match a with | ⟨0, _⟩ => rfl | ⟨1, _⟩ => rfl | ⟨2, _⟩ => rfl)
theorem ridx4 (b : Fin 16) (s t k : Fin 1024) : ridx_main_v4 (ix3 b s t) k = ix3 b t k :=
  funext fun a => Fin.ext (by match a with | ⟨0, _⟩ => rfl | ⟨1, _⟩ => rfl | ⟨2, _⟩ => rfl)
theorem idx910 (b : Fin 16) (s t : Fin 1024) : idx_main_v9 (idx_main_v10 (ix3 b s t)) = ix2 b s :=
  funext fun a => Fin.ext (by match a with | ⟨0, _⟩ => rfl | ⟨1, _⟩ => rfl)
theorem idx13 (b : Fin 16) (s k : Fin 1024) : idx_main_v13 (ix2 b s) k = ix3 b s k :=
  funext fun a => Fin.ext (by match a with | ⟨0, _⟩ => rfl | ⟨1, _⟩ => rfl | ⟨2, _⟩ => rfl)
theorem idx1415 (b : Fin 16) (s t : Fin 1024) : idx_main_v14 (idx_main_v15 (ix3 b s t)) = ix2 b s :=
  funext fun a => Fin.ext (by match a with | ⟨0, _⟩ => rfl | ⟨1, _⟩ => rfl)
theorem lidx17 (b : Fin 16) (s e k : Fin 1024) : lidx_main_v17 (ix3 b s e) k = ix3 b s k :=
  funext fun a => Fin.ext (by match a with | ⟨0, _⟩ => rfl | ⟨1, _⟩ => rfl | ⟨2, _⟩ => rfl)
theorem ridx17 (b : Fin 16) (s e k : Fin 1024) : ridx_main_v17 (ix3 b s e) k = ix3 b k e :=
  funext fun a => Fin.ext (by match a with | ⟨0, _⟩ => rfl | ⟨1, _⟩ => rfl | ⟨2, _⟩ => rfl)

/-! ## The stages, entry by entry -/

/-- The first einsum plus the bias, at (b, s, e): entry e of the projected query of row (b, s). -/
theorem ref_project (b : Fin 16) (s e : Fin 1024) :
    val_main_v3 (F := Ideal) x0 x3 x4 (ix3 b s e) = project (qrow x0 b s) (wmat x3) (bias x4) e := by
  rw [val_main_v3_apply, val_main_v0_apply, val_main_v2_apply, val_main_v1_apply, idx12]
  simp only [lidx0, ridx0, project, Ideal.addf_def]

/-- The second einsum plus the mask, at (b, s, t): the logit of row (b, s) against key row t of slab b. -/
theorem ref_logit (b : Fin 16) (s t : Fin 1024) :
    val_main_v5 (F := Ideal) x0 x1 x2 x3 x4 (ix3 b s t)
      = logit (qrow x0 b s) (wmat x3) (bias x4) (keys x1 b) (mrow x2 b s) t := by
  rw [val_main_v5_apply, val_main_v4_apply]
  simp only [lidx4, ridx4, ref_project, logit, Ideal.addf_def]

/-- The reduction by maximum, met with minus infinity, at (b, s): the largest logit of the row. -/
theorem ref_peak (b : Fin 16) (s : Fin 1024) :
    val_main_v8 (F := Ideal) x0 x1 x2 x3 x4 (ix2 b s)
      = peak (logit (qrow x0 b s) (wmat x3) (bias x4) (keys x1 b) (mrow x2 b s)) := by
  rw [val_main_v8_apply, val_main_v7_apply]
  unfold val_main_v6
  have hR : S16x1024x1024.Reduces [2] S16x1024 := by decide
  have hfold := Cert.RowMax.hostRowMax_apply (φ := .f32) (val_main_v5 (F := Ideal) x0 x1 x2 x3 x4) (val_main_cst (F := Ideal))
    reducesTo_S16x1024x1024_S16x1024_d2 hR h_S_ b s
  rw [hfold]
  simp only [ref_logit]
  rfl

/-- The exponential of a logit's distance below the row's largest. -/
theorem ref_unnorm (b : Fin 16) (s t : Fin 1024) :
    val_main_v12 (F := Ideal) x0 x1 x2 x3 x4 (ix3 b s t)
      = unnorm (logit (qrow x0 b s) (wmat x3) (bias x4) (keys x1 b) (mrow x2 b s)) t := by
  rw [val_main_v12_apply, val_main_v11_apply, val_main_v10_apply, val_main_v9_apply, idx910, ref_logit, ref_peak]
  rfl

/-- The row's total of the unnormalised weights (the sum starts from the zero pattern). -/
theorem ref_total (b : Fin 16) (s : Fin 1024) :
    val_main_v13 (F := Ideal) x0 x1 x2 x3 x4 (ix2 b s)
      = ∑ u : Fin 1024, unnorm (logit (qrow x0 b s) (wmat x3) (bias x4) (keys x1 b) (mrow x2 b s)) u := by
  rw [val_main_v13_apply]
  simp only [idx13, ref_unnorm]
  show Ideal.ofBits .f32 0x00000000#32 + _ = _
  rw [Ideal.ofBits_zero_f32, zero_add]

/-- The quotient: the softmax weight. -/
theorem ref_weight (b : Fin 16) (s t : Fin 1024) :
    val_main_v16 (F := Ideal) x0 x1 x2 x3 x4 (ix3 b s t)
      = weight (logit (qrow x0 b s) (wmat x3) (bias x4) (keys x1 b) (mrow x2 b s)) t := by
  rw [val_main_v16_apply, val_main_v15_apply, val_main_v14_apply, idx1415, ref_unnorm, ref_total]
  rfl

/-- The reference's result array is the attention of its five arguments. -/
theorem ref_attend : val_main_v17 (F := Ideal) x0 x1 x2 x3 x4 = attend x0 x1 x2 x3 x4 := by
  funext i
  obtain ⟨b, s, e, rfl⟩ : ∃ (b : Fin 16) (s e : Fin 1024), i = ix3 b s e := ⟨i 0, i 1, i 2, eq_ix3 i⟩
  rw [attend_apply, val_main_v17_apply]
  unfold attendRow
  refine Finset.sum_congr rfl fun t _ => ?_
  rw [lidx17, ridx17, ref_weight]

end Cert.ReferenceIdeal.RefValue

end
-- ==== Proof.lean ====
/-
  A fused attention kernel against its three-einsum reference, equal over the extended reals.

  Both programs compute, for every batch b and query row s, the same row function (Attention.lean): project the
  query by the weight matrix and bias, take its logits against the 1024 key rows of slab b plus the mask row,
  pass them through the softmax with the row maximum subtracted, and combine the same key rows by the weights.
  The kernel does this on a 16 x 4 grid, 256 query rows at a time, with its matrix products fed in a narrower float
  format; the reference does it with three whole-array contractions.  On the extended reals a change of float
  format is the identity, a product into a zero accumulator is the sum of products, and the sums and the maximum
  are taken over index sets, so the two are the same function of the arguments entry by entry; no finiteness of
  the inputs is used.

  The pieces: BodyAttention.lean reads the kernel body's arithmetic at a row of its tile; KernelAttention.lean reads
  the six windows' blocks at a grid point and assembles the 64 written-back blocks into the whole array;
  RefAttention.lean reads the reference's operations at an index.  Here the three frames are cited, the
  idealization is the kernel's own text (nothing was rewritten), and the two runs are set side by side.
-/
import proofs.«153279_j86741159510307_1_alg».proof.Defs
import proofs.«153279_j86741159510307_1_alg».proof.Proof.Gen.Kernel
import proofs.«153279_j86741159510307_1_alg».proof.Proof.Gen.Kernel.Skeleton
import proofs.«153279_j86741159510307_1_alg».proof.Proof.Gen.Kernel.Launch
import proofs.«153279_j86741159510307_1_alg».proof.Proof.Gen.Kernel.Points
import proofs.«153279_j86741159510307_1_alg».proof.Proof.Gen.Kernel.Frame
import proofs.«153279_j86741159510307_1_alg».proof.Proof.Gen.KernelIdeal
import proofs.«153279_j86741159510307_1_alg».proof.Proof.Gen.KernelIdeal.Skeleton
import proofs.«153279_j86741159510307_1_alg».proof.Proof.Gen.KernelIdeal.Launch
import proofs.«153279_j86741159510307_1_alg».proof.Proof.Gen.KernelIdeal.Points
import proofs.«153279_j86741159510307_1_alg».proof.Proof.Gen.KernelIdeal.Frame
import proofs.«153279_j86741159510307_1_alg».proof.Proof.Gen.ReferenceIdeal
import proofs.«153279_j86741159510307_1_alg».proof.Proof.Gen.Pre_finite_inputs
import proofs.«153279_j86741159510307_1_alg».proof.Proof.Gen.KernelIdeal.Value
import proofs.«153279_j86741159510307_1_alg».proof.Proof.Gen.ReferenceIdeal.Run
import proofs.«153279_j86741159510307_1_alg».proof.Proof.Gen.ReferenceIdeal.Read
import proofs.«153279_j86741159510307_1_alg».proof.Proof.KernelAttention
import proofs.«153279_j86741159510307_1_alg».proof.Proof.RefAttention
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- From arguments that agree, the kernel's result array and the reference's are both the attention of the arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.ref_attend,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
